-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩
abbrev S2048 : Shape := ⟨1, ![2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S1024x2048 .f32) (main_arg5 : FVec F S1024x2048 .f32) (main_arg6 : FVec F S2048 .f32) (main_arg7 : FVec F S2048 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024x2048 .f32 := Host.absf main_arg4
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x2048 .f32) (main_arg2 : FVec F S2048x1024 .f32) (main_arg3 : FVec F S2048x1024 .f32) (main_arg4 : FVec F S1024x2048 .f32) (main_arg5 : FVec F S1024x2048 .f32) (main_arg6 : FVec F S2048 .f32) (main_arg7 : FVec F S2048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_v13 main_v16
-- ==== Kernel.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩
abbrev S2048 : Shape := ⟨1, ![2048]⟩
abbrev S1x2048 : Shape := ⟨2, ![1, 2048]⟩
abbrev S2048x512 : Shape := ⟨2, ![2048, 512]⟩
abbrev S512x1024 : Shape := ⟨2, ![512, 1024]⟩
abbrev S1x512 : Shape := ⟨2, ![1, 512]⟩
abbrev S1024x512 : Shape := ⟨2, ![1024, 512]⟩

abbrev nBuf : Space → Nat
  | .hbm => 25
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S1024x2048, .f32⟩
  | .hbm, ⟨5, _⟩ => ⟨S1024x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S1x2048, .f32⟩
  | .hbm, ⟨15, _⟩ => ⟨S2048, .f32⟩
  | .hbm, ⟨16, _⟩ => ⟨S2048, .f32⟩
  | .hbm, ⟨17, _⟩ => ⟨S1x2048, .f32⟩
  | .hbm, ⟨18, _⟩ => ⟨S8192x1024, .bf16⟩
  | .hbm, ⟨19, _⟩ => ⟨S8192x2048, .bf16⟩
  | .hbm, ⟨20, _⟩ => ⟨S2048x1024, .bf16⟩
  | .hbm, ⟨21, _⟩ => ⟨S2048x1024, .bf16⟩
  | .hbm, ⟨22, _⟩ => ⟨S1024x2048, .bf16⟩
  | .hbm, ⟨23, _⟩ => ⟨S1024x2048, .bf16⟩
  | .hbm, ⟨24, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2048x1024, .f32⟩
  | .local _ .vmem, ⟨17, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_v0 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2048_S1x2048 : S2048.ShapeCasts S1x2048
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  dot_S2048x1024_S512x1024_S2048x512_1_1_0_0_n_n_wf : DotDims.WF S2048x1024 S512x1024 S2048x512 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .bf16 = 32 ∨ (Rect.block (s := S8192x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x2048.size a
  hwx0_1 : ∀ i : grid0.Coords, EltTy.bits .bf16 = 32 ∨ (Rect.block (s := S8192x2048) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x1024.size a
  hwx0_2 : ∀ i : grid0.Coords, EltTy.bits .bf16 = 32 ∨ (Rect.block (s := S2048x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S2048x1024.size a
  hwx0_3 : ∀ i : grid0.Coords, EltTy.bits .bf16 = 32 ∨ (Rect.block (s := S2048x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x2048.size a
  hwx0_6 : ∀ i : grid0.Coords, EltTy.bits .bf16 = 32 ∨ (Rect.block (s := S1024x2048) S1024x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x2048.size a
  hwx0_7 : ∀ i : grid0.Coords, EltTy.bits .bf16 = 32 ∨ (Rect.block (s := S1024x2048) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x1024.size a ≤ S8192x1024.size a
  hwx0_8 : ∀ i : grid0.Coords, EltTy.bits .f32 = 32 ∨ (Rect.block (s := S8192x1024) S2048x1024.size (cc0_transform_8 i) (hinb0_8 i)).WholeWords (EltTy.packing .f32)

variable [Facts₀]

def dot_S2048x1024_S512x1024_S2048x512_1_1_0_0_n_n : DotDims S2048x1024 S512x1024 S2048x512 where
  lhsContracting := [1]
  rhsContracting := [1]
  lhsNonContracting := [0]
  rhsNonContracting := [0]
  lhsBatch := []
  rhsBatch := []
  wf := dot_S2048x1024_S512x1024_S2048x512_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_call0_v10) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v11) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v12) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v13) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v6) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v9) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v14) S1024x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v15) S1024x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S2048x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x2048 : Shape := ⟨2, ![8192, 2048]⟩
abbrev S2048x1024 : Shape := ⟨2, ![2048, 1024]⟩
abbrev S1024x2048 : Shape := ⟨2, ![1024, 2048]⟩
abbrev S2048 : Shape := ⟨1, ![2048]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S2048x1024, .f32⟩
  | .hbm, ⟨3, _⟩ => ⟨S2048x1024, .f32⟩
  | .hbm, ⟨4, _⟩ => ⟨S1024x2048, .f32⟩
  | .hbm, ⟨5, _⟩ => ⟨S1024x2048, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x1024, .f32⟩
  | .hbm, ⟨27, _⟩ => ⟨S8192x1024, .f32⟩
  | .hbm, ⟨28, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  dot_S8192x1024_S2048x1024_S8192x2048_1_1_0_0_n_n_wf : DotDims.WF S8192x1024 S2048x1024 S8192x2048 [1] [1] [0] [0] [] []
  dot_S8192x2048_S1024x2048_S8192x1024_1_1_0_0_n_n_wf : DotDims.WF S8192x2048 S1024x2048 S8192x1024 [1] [1] [0] [0] [] []

variable [Facts₀]

def dot_S8192x1024_S2048x1024_S8192x2048_1_1_0_0_n_n : DotDims S8192x1024 S2048x1024 S8192x2048 where
  lhsContracting := [1]
  rhsContracting := [1]
  lhsNonContracting := [0]
  rhsNonContracting := [0]
  lhsBatch := []
  rhsBatch := []
  wf := dot_S8192x1024_S2048x1024_S8192x2048_1_1_0_0_n_n_wf
def dot_S8192x2048_S1024x2048_S8192x1024_1_1_0_0_n_n : DotDims S8192x2048 S1024x2048 S8192x1024 where
  lhsContracting := [1]
  rhsContracting := [1]
  lhsNonContracting := [0]
  rhsNonContracting := [0]
  lhsBatch := []
  rhsBatch := []
  wf := dot_S8192x2048_S1024x2048_S8192x1024_1_1_0_0_n_n_wf

class Facts : Prop extends Facts₀ where

variable [Facts]
-- ==== Proof.Payload.lean ====
/-
  The kernel body's arithmetic read at one entry, over the extended reals.

  At a grid point the body forms, from a 2048-row block of `x` (`x0`), a 512-row block of a `B` matrix (`x2`), the
  matching 512 decay weights (`x4`), the block of `h_prev` (`x1`) and a 512-column block of a `C` matrix (`x6`),
      P[p, q] = ∑ k < 512, (∑ i < 1024, x0[p, i] · x2[k, i] + x1[p, k] · x4[0, k]) · x6[q, k]
  (both contractions accumulate into zero, the format changes are the identity), once with the real-part operands and
  once with the imaginary-part ones, and leaves `acc + (P_re − P_im)` in the output block.
-/
import proofs.«172185_j56221121905330_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic
open scoped BigOperators

namespace Cert.LRU

open Cert.KernelIdeal Cert.KernelIdeal.Gen ValueIdx

local notation "D₁" => dot_S2048x1024_S512x1024_S2048x512_1_1_0_0_n_n
local notation "D₂" => dot_S2048x512_S1024x512_S2048x1024_1_1_0_0_n_n

/-! ### The two contractions' operand indices -/

theorem d1_lhs0 (j : S2048x512.Idx) (c : (D₁).contr.Idx) : ((D₁).lhsIdx j c 0).val = (j 0).val := by
  unfold DotDims.lhsIdx
  rw [dif_neg (show ¬(0 : Fin S2048x1024.rank) ∈ (D₁).lhsBatch by decide), dif_pos (show (0 : Fin S2048x1024.rank) ∈ (D₁).lhsNonContracting by decide)]
  rfl
theorem d1_lhs1 (j : S2048x512.Idx) (c : (D₁).contr.Idx) : ((D₁).lhsIdx j c 1).val = (c ⟨0, by decide⟩).val :=
  (D₁).lhsIdx_val_of_single rfl j c
theorem d1_rhs0 (j : S2048x512.Idx) (c : (D₁).contr.Idx) : ((D₁).rhsIdx j c 0).val = (j 1).val := by
  unfold DotDims.rhsIdx
  rw [dif_neg (show ¬(0 : Fin S512x1024.rank) ∈ (D₁).rhsBatch by decide), dif_pos (show (0 : Fin S512x1024.rank) ∈ (D₁).rhsNonContracting by decide)]
  rfl
theorem d1_rhs1 (j : S2048x512.Idx) (c : (D₁).contr.Idx) : ((D₁).rhsIdx j c 1).val = (c ⟨0, by decide⟩).val :=
  (D₁).rhsIdx_val_of_single rfl j c
theorem d2_lhs0 (j : S2048x1024.Idx) (c : (D₂).contr.Idx) : ((D₂).lhsIdx j c 0).val = (j 0).val := by
  unfold DotDims.lhsIdx
  rw [dif_neg (show ¬(0 : Fin S2048x512.rank) ∈ (D₂).lhsBatch by decide), dif_pos (show (0 : Fin S2048x512.rank) ∈ (D₂).lhsNonContracting by decide)]
  rfl
theorem d2_lhs1 (j : S2048x1024.Idx) (c : (D₂).contr.Idx) : ((D₂).lhsIdx j c 1).val = (c ⟨0, by decide⟩).val :=
  (D₂).lhsIdx_val_of_single rfl j c
theorem d2_rhs0 (j : S2048x1024.Idx) (c : (D₂).contr.Idx) : ((D₂).rhsIdx j c 0).val = (j 1).val := by
  unfold DotDims.rhsIdx
  rw [dif_neg (show ¬(0 : Fin S1024x512.rank) ∈ (D₂).rhsBatch by decide), dif_pos (show (0 : Fin S1024x512.rank) ∈ (D₂).rhsNonContracting by decide)]
  rfl
theorem d2_rhs1 (j : S2048x1024.Idx) (c : (D₂).contr.Idx) : ((D₂).rhsIdx j c 1).val = (c ⟨0, by decide⟩).val :=
  (D₂).rhsIdx_val_of_single rfl j c

theorem d1_lhs (p : Fin 2048) (k : Fin 512) (i : Fin 1024) :
    (D₁).lhsIdx (ix2 p k) ((contrEquiv1 (D₁) 1024 rfl rfl).symm i) = ix2 p i := by
  have hk := contrEquiv1_symm_val (D₁) 1024 rfl rfl i
  exact funext fun a => Fin.ext (by
    match a with
    | ⟨0, _⟩ => exact d1_lhs0 _ _
    | ⟨1, _⟩ => exact (d1_lhs1 _ _).trans hk)

theorem d1_rhs (p : Fin 2048) (k : Fin 512) (i : Fin 1024) :
    (D₁).rhsIdx (ix2 p k) ((contrEquiv1 (D₁) 1024 rfl rfl).symm i) = ix2 k i := by
  have hk := contrEquiv1_symm_val (D₁) 1024 rfl rfl i
  exact funext fun a => Fin.ext (by
    match a with
    | ⟨0, _⟩ => exact d1_rhs0 _ _
    | ⟨1, _⟩ => exact (d1_rhs1 _ _).trans hk)

theorem d2_lhs (p : Fin 2048) (q : Fin 1024) (k : Fin 512) :
    (D₂).lhsIdx (ix2 p q) ((contrEquiv1 (D₂) 512 rfl rfl).symm k) = ix2 p k := by
  have hk := contrEquiv1_symm_val (D₂) 512 rfl rfl k
  exact funext fun a => Fin.ext (by
    match a with
    | ⟨0, _⟩ => exact d2_lhs0 _ _
    | ⟨1, _⟩ => exact (d2_lhs1 _ _).trans hk)

theorem d2_rhs (p : Fin 2048) (q : Fin 1024) (k : Fin 512) :
    (D₂).rhsIdx (ix2 p q) ((contrEquiv1 (D₂) 512 rfl rfl).symm k) = ix2 q k := by
  have hk := contrEquiv1_symm_val (D₂) 512 rfl rfl k
  exact funext fun a => Fin.ext (by
    match a with
    | ⟨0, _⟩ => exact d2_rhs0 _ _
    | ⟨1, _⟩ => exact (d2_rhs1 _ _).trans hk)

/-! ### The contractions read at an entry -/

/-- `x0 · x2ᵀ` into zero, at `[p, k]`: the sum over the 1024 input features. -/
theorem matmul1_apply (x0 : FVec Ideal S2048x1024 .bf16) (x2 : FVec Ideal S512x1024 .bf16) (p : Fin 2048) (k : Fin 512) :
    matmul (D₁) none x0 x2 (constant (F := Ideal) S2048x512 .f32 0x00000000#32) (ix2 p k)
      = ∑ i : Fin 1024, x0 (ix2 p i) * x2 (ix2 k i) := by
  simp only [matmul]
  rw [Ideal.matmul_constant_zero_apply, ← Equiv.sum_comp (contrEquiv1 (D₁) 1024 rfl rfl).symm]
  exact Finset.sum_congr rfl fun i _ => by rw [d1_lhs, d1_rhs]

/-- `y · x6ᵀ` into zero, at `[p, q]`: the sum over the block's 512 hidden positions. -/
theorem matmul2_apply (y : FVec Ideal S2048x512 .bf16) (x6 : FVec Ideal S1024x512 .bf16) (p : Fin 2048) (q : Fin 1024) :
    matmul (D₂) none y x6 (constant (F := Ideal) S2048x1024 .f32 0x00000000#32) (ix2 p q)
      = ∑ k : Fin 512, y (ix2 p k) * x6 (ix2 q k) := by
  simp only [matmul]
  rw [Ideal.matmul_constant_zero_apply, ← Equiv.sum_comp (contrEquiv1 (D₂) 512 rfl rfl).symm]
  exact Finset.sum_congr rfl fun k _ => by rw [d2_lhs, d2_rhs]

/-- The weight row `[1, 512]` broadcast down the 2048 rows, at `[p, k]`, is the weight at `[0, k]`. -/
theorem bcast_row_apply (w : FVec Ideal S1x512 .f32) (p : Fin 2048) (k : Fin 512) :
    broadcastTo S2048x512 w broadcasts_S1x512_S2048x512 (ix2 p k) = w (ix2 (0 : Fin 1) k) :=
  broadcastTo_apply w broadcasts_S1x512_S2048x512 (ix2 p k) (ix2 (0 : Fin 1) k) (fun a => match a with
    | ⟨0, _⟩ => by show (0 : ℕ) = if (1 : ℕ) = 1 then 0 else p.val; rw [if_pos rfl]
    | ⟨1, _⟩ => by show k.val = if (512 : ℕ) = 1 then 0 else k.val; rw [if_neg (by decide)])

/-! ### The payloads -/

/-- The projected real-part (or imaginary-part) block at `[p, q]`. -/
def proj (x0 : S2048x1024.Idx → EReal) (x2 : S512x1024.Idx → EReal) (x4 : S1x512.Idx → EReal) (x1 : S2048x512.Idx → EReal)
    (x6 : S1024x512.Idx → EReal) (p : Fin 2048) (q : Fin 1024) : EReal :=
  ∑ k : Fin 512, (∑ i : Fin 1024, x0 (ix2 p i) * x2 (ix2 k i) + x1 (ix2 p k) * x4 (ix2 (0 : Fin 1) k)) * x6 (ix2 q k)

theorem pay5_apply (x0 : Vec Ideal S2048x1024 .bf16) (x2 : Vec Ideal S512x1024 .bf16) (x4 : Vec Ideal S1x512 .f32)
    (x1 : Vec Ideal S2048x512 .bf16) (x6 : Vec Ideal S1024x512 .bf16) (p : Fin 2048) (q : Fin 1024) :
    k0_pay5 (F := Ideal) x0 x2 x4 x1 x6 (ix2 p q) = proj x0 x2 x4 x1 x6 p q := by
  unfold k0_pay5 k0_pay3 k0_pay4 proj
  simp only [shapeCast_self]
  rw [matmul2_apply]
  refine Finset.sum_congr rfl fun k _ => ?_
  rw [truncf_apply, addf_apply, matmul1_apply, mulf_apply, extf_apply, bcast_row_apply]

theorem pay6_apply (x0 : Vec Ideal S2048x1024 .bf16) (x3 : Vec Ideal S512x1024 .bf16) (x5 : Vec Ideal S1x512 .f32)
    (x1 : Vec Ideal S2048x512 .bf16) (x7 : Vec Ideal S1024x512 .bf16) (p : Fin 2048) (q : Fin 1024) :
    k0_pay6 (F := Ideal) x0 x3 x5 x1 x7 (ix2 p q) = proj x0 x3 x5 x1 x7 p q := by
  unfold k0_pay6 k0_pay3 k0_pay4 proj
  simp only [shapeCast_self]
  rw [matmul2_apply]
  refine Finset.sum_congr rfl fun k _ => ?_
  rw [truncf_apply, addf_apply, matmul1_apply, mulf_apply, extf_apply, bcast_row_apply]

/-- The stored block: the block read back plus the difference of the two projections. -/
theorem pay1_apply (R I : FVec Ideal S2048x1024 .f32) (acc : Vec Ideal S2048x1024 .f32) (y : S2048x1024.Idx) :
    k0_pay1 (F := Ideal) R I acc y = acc y + (R y - I y) := by
  unfold k0_pay1
  simp only [shapeCast_self]
  rfl

/-- The block the first hidden-axis step starts from: zero. -/
theorem pay2_apply (y : S2048x1024.Idx) : k0_pay2 (F := Ideal) y = 0 := by
  unfold k0_pay2
  show Ideal.ofBits .f32 0x00000000#32 = 0
  exact Ideal.ofBits_zero_f32

end Cert.LRU

end
-- ==== Proof.SumBlocks.lean ====
/-
  Extended-real arithmetic for a sum over 2048 positions taken in four consecutive stretches of 512.

  A sum over `Fin 2048` is the sum of its four stretches (in any commutative monoid), and if every term of `g` is a
  real number, then accumulating the four differences "stretch of `f` minus stretch of `g`" from zero gives the
  difference of the two whole sums.  Realness of `g` is needed: on the extended reals the negative of a sum is the
  sum of the negatives only when no `⊤` meets a `⊥`.
-/
import Mathlib.Data.EReal.Operations
import Mathlib.Algebra.BigOperators.Fin
import Mathlib.Logic.Equiv.Fin.Basic

open scoped BigOperators

namespace Cert.LRU

/-- An extended real that is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- Position `k` of stretch `j`: `512 j + k`. -/
def catEquiv : Fin 4 × Fin 512 ≃ Fin 2048 := finProdFinEquiv (m := 4) (n := 512)

def cat (j : Fin 4) (k : Fin 512) : Fin 2048 := catEquiv (j, k)

theorem cat_val (j : Fin 4) (k : Fin 512) : (cat j k).val = 512 * j.val + k.val := by
  show k.val + 512 * j.val = _
  omega

/-- A sum over the 2048 positions is the sum of the four stretches. -/
theorem sum_cat {M : Type*} [AddCommMonoid M] (f : Fin 2048 → M) :
    ∑ h, f h = ∑ k, f (cat 0 k) + ∑ k, f (cat 1 k) + ∑ k, f (cat 2 k) + ∑ k, f (cat 3 k) := by
  rw [← Equiv.sum_comp catEquiv f, Fintype.sum_prod_type, Fin.sum_univ_four]
  rfl

/-- Four differences against real subtrahends, accumulated from zero, make the difference of the sums. -/
theorem acc_sub (F0 F1 F2 F3 : EReal) (r0 r1 r2 r3 : ℝ) :
    (((0 + (F0 - r0)) + (F1 - r1)) + (F2 - r2)) + (F3 - r3) = (F0 + F1 + F2 + F3) - ((r0 : EReal) + r1 + r2 + r3) := by
  have e : ((r0 : EReal) + r1 + r2 + r3) = ((r0 + r1 + r2 + r3 : ℝ) : EReal) := by
    simp only [EReal.coe_add]
  rw [e, zero_add]
  simp only [sub_eq_add_neg, ← EReal.coe_neg]
  rw [show -(r0 + r1 + r2 + r3) = -r0 + -r1 + -r2 + -r3 by ring]
  simp only [EReal.coe_add]
  ac_rfl

/-- The accumulation over the four stretches of `f`-sum minus `g`-sum is the whole `f`-sum minus the whole `g`-sum,
    when `g`'s terms are real. -/
theorem acc_blocks_eq (f g : Fin 2048 → EReal) (hg : ∀ h, IsReal (g h)) :
    ((((0 : EReal) + (∑ k, f (cat 0 k) - ∑ k, g (cat 0 k))) + (∑ k, f (cat 1 k) - ∑ k, g (cat 1 k)))
        + (∑ k, f (cat 2 k) - ∑ k, g (cat 2 k))) + (∑ k, f (cat 3 k) - ∑ k, g (cat 3 k))
      = ∑ h, f h - ∑ h, g h := by
  obtain ⟨r0, h0⟩ := IsReal.sum Finset.univ (fun k => g (cat 0 k)) fun k _ => hg _
  obtain ⟨r1, h1⟩ := IsReal.sum Finset.univ (fun k => g (cat 1 k)) fun k _ => hg _
  obtain ⟨r2, h2⟩ := IsReal.sum Finset.univ (fun k => g (cat 2 k)) fun k _ => hg _
  obtain ⟨r3, h3⟩ := IsReal.sum Finset.univ (fun k => g (cat 3 k)) fun k _ => hg _
  rw [sum_cat f, sum_cat g, h0, h1, h2, h3]
  exact acc_sub _ _ _ _ r0 r1 r2 r3

end Cert.LRU
-- ==== Proof.Spec.lean ====
/-
  What both programs compute, entry by entry, over the extended reals.

  With `wr[h] = exp(−exp v[h]) · cos(exp θ[h])` and `wi[h] = exp(−exp v[h]) · sin(exp θ[h])`, the hidden state at
  batch row `b` and hidden position `h` is `∑ i, x[b,i]·B[h,i] + h_prev[b,h]·w[h]`, and its contribution to output
  `[b, o]` is that times `C[o,h]` (`term`).  The reference subtracts the imaginary part's whole sum over `h` from the
  real part's (`outRef`); the kernel walks the 2048 hidden positions in four stretches of 512 and accumulates the
  stretch differences from zero (`outAcc`).  When the imaginary part's terms are real numbers the two agree
  (`outAcc_eq_outRef`), and they are real numbers when the inputs are (`term_isReal`).
-/
import proofs.«172185_j56221121905330_2_alg».proof.Proof.SumBlocks
import Idealize.ShloMosaic.Lib.ValueIdx
import Idealize.ShloMosaic.PureOps.Ideal

noncomputable section

open Idealize.ShloMosaic
open scoped BigOperators

namespace Cert.LRU

open ValueIdx

/-- The shapes of `x`, `h_prev`, the `B` matrices, the `C` matrices and the two parameter vectors. -/
abbrev SX : Shape := ⟨2, ![8192, 1024]⟩
abbrev SH : Shape := ⟨2, ![8192, 2048]⟩
abbrev SB : Shape := ⟨2, ![2048, 1024]⟩
abbrev SC : Shape := ⟨2, ![1024, 2048]⟩
abbrev SV : Shape := ⟨1, ![2048]⟩

/-- The decay weight's real part `exp(−exp v) · cos(exp θ)`, as the host operations spell it. -/
def wRe (v θ : FVec Ideal SV .f32) : FVec Ideal SV .f32 :=
  mulf (Host.exp (Host.negf (Host.exp v))) (Host.cos (Host.exp θ))

/-- The decay weight's imaginary part `exp(−exp v) · sin(exp θ)`. -/
def wIm (v θ : FVec Ideal SV .f32) : FVec Ideal SV .f32 :=
  mulf (Host.exp (Host.negf (Host.exp v))) (Host.sin (Host.exp θ))

theorem wRe_apply (v θ : FVec Ideal SV .f32) (h : SV.Idx) :
    wRe v θ h = Ideal.exp (-(Ideal.exp (v h))) * Ideal.cos (Ideal.exp (θ h)) := rfl

theorem wIm_apply (v θ : FVec Ideal SV .f32) (h : SV.Idx) :
    wIm v θ h = Ideal.exp (-(Ideal.exp (v h))) * Ideal.sin (Ideal.exp (θ h)) := rfl

theorem wRe_isReal (v θ : FVec Ideal SV .f32) (hv : ∀ h, IsReal (v h)) (hθ : ∀ h, IsReal (θ h)) (h : SV.Idx) :
    IsReal (wRe v θ h) := by
  obtain ⟨a, ha⟩ := hv h
  obtain ⟨b, hb⟩ := hθ h
  rw [wRe_apply, ha, hb, Ideal.exp_coe, ← EReal.coe_neg, Ideal.exp_coe, Ideal.exp_coe, Ideal.cos_coe]
  exact (IsReal.coe _).mul (IsReal.coe _)

theorem wIm_isReal (v θ : FVec Ideal SV .f32) (hv : ∀ h, IsReal (v h)) (hθ : ∀ h, IsReal (θ h)) (h : SV.Idx) :
    IsReal (wIm v θ h) := by
  obtain ⟨a, ha⟩ := hv h
  obtain ⟨b, hb⟩ := hθ h
  rw [wIm_apply, ha, hb, Ideal.exp_coe, ← EReal.coe_neg, Ideal.exp_coe, Ideal.exp_coe, Ideal.sin_coe]
  exact (IsReal.coe _).mul (IsReal.coe _)

/-- Hidden position `h`'s contribution to output `[b, o]`. -/
def term (X : SX.Idx → EReal) (Hp : SH.Idx → EReal) (B : SB.Idx → EReal) (w : SV.Idx → EReal) (C : SC.Idx → EReal)
    (b : Fin 8192) (o : Fin 1024) (h : Fin 2048) : EReal :=
  (∑ i : Fin 1024, X (ix2 b i) * B (ix2 h i) + Hp (ix2 b h) * w (ix1 h)) * C (ix2 o h)

theorem term_isReal (X : SX.Idx → EReal) (Hp : SH.Idx → EReal) (B : SB.Idx → EReal) (w : SV.Idx → EReal) (C : SC.Idx → EReal)
    (hX : ∀ i, IsReal (X i)) (hHp : ∀ i, IsReal (Hp i)) (hB : ∀ i, IsReal (B i)) (hw : ∀ i, IsReal (w i)) (hC : ∀ i, IsReal (C i))
    (b : Fin 8192) (o : Fin 1024) (h : Fin 2048) : IsReal (term X Hp B w C b o h) :=
  ((IsReal.sum _ _ fun i _ => (hX _).mul (hB _)).add ((hHp _).mul (hw _))).mul (hC _)

/-- The reference's value at `[b, o]`: whole sum of the real part's terms minus whole sum of the imaginary part's. -/
def outRef (X : SX.Idx → EReal) (Hp : SH.Idx → EReal) (Br Bi : SB.Idx → EReal) (Cr Ci : SC.Idx → EReal) (wr wi : SV.Idx → EReal)
    (b : Fin 8192) (o : Fin 1024) : EReal :=
  ∑ h, term X Hp Br wr Cr b o h - ∑ h, term X Hp Bi wi Ci b o h

/-- One stretch's difference: the real part's 512 terms minus the imaginary part's. -/
def stretch (X : SX.Idx → EReal) (Hp : SH.Idx → EReal) (Br Bi : SB.Idx → EReal) (Cr Ci : SC.Idx → EReal) (wr wi : SV.Idx → EReal)
    (b : Fin 8192) (o : Fin 1024) (j : Fin 4) : EReal :=
  ∑ k, term X Hp Br wr Cr b o (cat j k) - ∑ k, term X Hp Bi wi Ci b o (cat j k)

/-- The kernel's value at `[b, o]`: the four stretch differences accumulated from zero. -/
def outAcc (X : SX.Idx → EReal) (Hp : SH.Idx → EReal) (Br Bi : SB.Idx → EReal) (Cr Ci : SC.Idx → EReal) (wr wi : SV.Idx → EReal)
    (b : Fin 8192) (o : Fin 1024) : EReal :=
  (((0 + stretch X Hp Br Bi Cr Ci wr wi b o 0) + stretch X Hp Br Bi Cr Ci wr wi b o 1)
    + stretch X Hp Br Bi Cr Ci wr wi b o 2) + stretch X Hp Br Bi Cr Ci wr wi b o 3

theorem outAcc_eq_outRef (X : SX.Idx → EReal) (Hp : SH.Idx → EReal) (Br Bi : SB.Idx → EReal) (Cr Ci : SC.Idx → EReal) (wr wi : SV.Idx → EReal)
    (hX : ∀ i, IsReal (X i)) (hHp : ∀ i, IsReal (Hp i)) (hBi : ∀ i, IsReal (Bi i)) (hwi : ∀ i, IsReal (wi i)) (hCi : ∀ i, IsReal (Ci i))
    (b : Fin 8192) (o : Fin 1024) :
    outAcc X Hp Br Bi Cr Ci wr wi b o = outRef X Hp Br Bi Cr Ci wr wi b o :=
  acc_blocks_eq (fun h => term X Hp Br wr Cr b o h) (fun h => term X Hp Bi wi Ci b o h)
    (fun h => term_isReal X Hp Bi wi Ci hX hHp hBi hwi hCi b o h)

end Cert.LRU

end
-- ==== Proof.Blocks.lean ====
/-
  The kernel's result array, entry by entry.

  The grid has 16 points `t = 4 r + j`: row block `r` (2048 batch rows) and hidden stretch `j` (512 positions).  At
  point `t` the windows hold rows `2048 r …` of `x` and `h_prev`, rows `512 j …` of the `B` matrices, columns
  `512 j …` of the decay-weight rows, of `h_prev` and of the `C` matrices — the host operations before the call only
  change the float format (the identity here) and lay the weight vectors out as rows.  So the body's projection at
  `[p, o]` of the block is the stretch `j` of the hidden sum for output `[2048 r + p, o]`, and the output block after
  the four points of the row block holds the four stretch differences accumulated from zero: `outAcc`.
-/
import proofs.«172185_j56221121905330_2_alg».proof.Proof.Gen.KernelIdeal.Value
import proofs.«172185_j56221121905330_2_alg».proof.Proof.Payload
import proofs.«172185_j56221121905330_2_alg».proof.Proof.Spec
import Idealize.ShloMosaic.Lib.StableHlo.Run

noncomputable section

open Idealize.ShloMosaic Idealize.ShloMosaic.TcCoe Idealize.SL.Sem
open scoped BigOperators

namespace Cert.LRU

open Cert.KernelIdeal Cert.KernelIdeal.Gen ValueIdx

variable (m : (ℓ : Loc nD τ sig) → Buf (Elt Ideal) ℓ)

/-! ### The windows' block indices over the grid -/

/-- Point `t`'s block index in each input window: the row block `t / 4` or the hidden stretch `t % 4`. -/
theorem idx_facts : ∀ t : Fin cfg0.N,
    win0_0.index t (0 : Fin 2) = t.val / 4 ∧ win0_0.index t (1 : Fin 2) = 0
    ∧ win0_1.index t (0 : Fin 2) = t.val / 4 ∧ win0_1.index t (1 : Fin 2) = t.val % 4
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 2) = 0 ∧ win0_4.index t (1 : Fin 2) = t.val % 4
    ∧ win0_5.index t (0 : Fin 2) = 0 ∧ win0_5.index t (1 : Fin 2) = t.val % 4
    ∧ win0_6.index t (0 : Fin 2) = 0 ∧ win0_6.index t (1 : Fin 2) = t.val % 4
    ∧ win0_7.index t (0 : Fin 2) = 0 ∧ win0_7.index t (1 : Fin 2) = t.val % 4 :=
  (by decide +kernel : ∀ t : Fin grid0.N, _)

/-! ### The arrays the call is launched on -/

theorem V10 (c : Dev nD) : (V m c main_call0_v10 : S8192x1024.Idx → EReal) = m ((c : Thread nD τ).loc main_arg0) := by
  dsimp only [Gen.V, Gen.hostOps0]; after_results; rfl
theorem V11 (c : Dev nD) : (V m c main_call0_v11 : S8192x2048.Idx → EReal) = m ((c : Thread nD τ).loc main_arg1) := by
  dsimp only [Gen.V, Gen.hostOps0]; after_results; rfl
theorem V12 (c : Dev nD) : (V m c main_call0_v12 : S2048x1024.Idx → EReal) = m ((c : Thread nD τ).loc main_arg2) := by
  dsimp only [Gen.V, Gen.hostOps0]; after_results; rfl
theorem V13 (c : Dev nD) : (V m c main_call0_v13 : S2048x1024.Idx → EReal) = m ((c : Thread nD τ).loc main_arg3) := by
  dsimp only [Gen.V, Gen.hostOps0]; after_results; rfl
theorem V14 (c : Dev nD) : (V m c main_call0_v14 : S1024x2048.Idx → EReal) = m ((c : Thread nD τ).loc main_arg4) := by
  dsimp only [Gen.V, Gen.hostOps0]; after_results; rfl
theorem V15 (c : Dev nD) : (V m c main_call0_v15 : S1024x2048.Idx → EReal) = m ((c : Thread nD τ).loc main_arg5) := by
  dsimp only [Gen.V, Gen.hostOps0]; after_results; rfl

/-- The real-part weights, laid out as one row. -/
theorem V6 (c : Dev nD) : (V m c main_call0_v6 : S1x2048.Idx → EReal)
    = shapeCast S1x2048 (wRe (m ((c : Thread nD τ).loc main_arg6)) (m ((c : Thread nD τ).loc main_arg7))) shapeCasts_S2048_S1x2048 := by
  dsimp only [Gen.V, Gen.hostOps0]; after_results; rfl
/-- The imaginary-part weights, laid out as one row. -/
theorem V9 (c : Dev nD) : (V m c main_call0_v9 : S1x2048.Idx → EReal)
    = shapeCast S1x2048 (wIm (m ((c : Thread nD τ).loc main_arg6)) (m ((c : Thread nD τ).loc main_arg7))) shapeCasts_S2048_S1x2048 := by
  dsimp only [Gen.V, Gen.hostOps0]; after_results; rfl

/-- A length-2048 vector laid out as a `[1, 2048]` row, at `[0, h]`, is the vector at `h`. -/
theorem row_apply (w : S2048.Idx → EReal) (h : Fin 2048) :
    shapeCast S1x2048 w shapeCasts_S2048_S1x2048 (ix2 (0 : Fin 1) h) = w (ix1 h) :=
  shapeCast_apply w shapeCasts_S2048_S1x2048 (ix2 (0 : Fin 1) h) (ix1 h) (by
    rw [Shape.rowMajor_val_one, Shape.rowMajor_val_two]
    show h.val = 0 * 2048 + h.val
    omega)

/-! ### Each window's block at a point -/

theorem blk0 (c : Dev nD) (t : Fin cfg0.N) (p : Fin 2048) (i : Fin 1024) (b : Fin 8192) (hb : b.val = 2048 * (t.val / 4) + p.val) :
    (iblk m c 0 t : Vec Ideal S2048x1024 .bf16) (ix2 p i) = m ((c : Thread nD τ).loc main_arg0) (ix2 b i) := by
  obtain ⟨e0, e1, -⟩ := idx_facts t
  unfold iblk
  rw [View.read_apply]
  show V m c main_call0_v10 _ = _
  rw [V10]
  congr 1
  funext a
  apply Fin.ext
  match a with
  | ⟨0, _⟩ => show win0_0.index t (0 : Fin 2) * 2048 + 1 * p.val = b.val; rw [e0, hb]; omega
  | ⟨1, _⟩ => show win0_0.index t (1 : Fin 2) * 1024 + 1 * i.val = i.val; rw [e1]; omega

theorem blk1 (c : Dev nD) (t : Fin cfg0.N) (p : Fin 2048) (k : Fin 512) (b : Fin 8192) (h : Fin 2048)
    (hb : b.val = 2048 * (t.val / 4) + p.val) (hh : h.val = 512 * (t.val % 4) + k.val) :
    (iblk m c 1 t : Vec Ideal S2048x512 .bf16) (ix2 p k) = m ((c : Thread nD τ).loc main_arg1) (ix2 b h) := by
  obtain ⟨-, -, e0, e1, -⟩ := idx_facts t
  unfold iblk
  rw [View.read_apply]
  show V m c main_call0_v11 _ = _
  rw [V11]
  congr 1
  funext a
  apply Fin.ext
  match a with
  | ⟨0, _⟩ => show win0_1.index t (0 : Fin 2) * 2048 + 1 * p.val = b.val; rw [e0, hb]; omega
  | ⟨1, _⟩ => show win0_1.index t (1 : Fin 2) * 512 + 1 * k.val = h.val; rw [e1, hh]; omega

theorem blk2 (c : Dev nD) (t : Fin cfg0.N) (k : Fin 512) (i : Fin 1024) (h : Fin 2048) (hh : h.val = 512 * (t.val % 4) + k.val) :
    (iblk m c 2 t : Vec Ideal S512x1024 .bf16) (ix2 k i) = m ((c : Thread nD τ).loc main_arg2) (ix2 h i) := by
  obtain ⟨-, -, -, -, e0, e1, -⟩ := idx_facts t
  unfold iblk
  rw [View.read_apply]
  show V m c main_call0_v12 _ = _
  rw [V12]
  congr 1
  funext a
  apply Fin.ext
  match a with
  | ⟨0, _⟩ => show win0_2.index t (0 : Fin 2) * 512 + 1 * k.val = h.val; rw [e0, hh]; omega
  | ⟨1, _⟩ => show win0_2.index t (1 : Fin 2) * 1024 + 1 * i.val = i.val; rw [e1]; omega

theorem blk3 (c : Dev nD) (t : Fin cfg0.N) (k : Fin 512) (i : Fin 1024) (h : Fin 2048) (hh : h.val = 512 * (t.val % 4) + k.val) :
    (iblk m c 3 t : Vec Ideal S512x1024 .bf16) (ix2 k i) = m ((c : Thread nD τ).loc main_arg3) (ix2 h i) := by
  obtain ⟨-, -, -, -, -, -, e0, e1, -⟩ := idx_facts t
  unfold iblk
  rw [View.read_apply]
  show V m c main_call0_v13 _ = _
  rw [V13]
  congr 1
  funext a
  apply Fin.ext
  match a with
  | ⟨0, _⟩ => show win0_3.index t (0 : Fin 2) * 512 + 1 * k.val = h.val; rw [e0, hh]; omega
  | ⟨1, _⟩ => show win0_3.index t (1 : Fin 2) * 1024 + 1 * i.val = i.val; rw [e1]; omega

theorem blk4 (c : Dev nD) (t : Fin cfg0.N) (k : Fin 512) (h : Fin 2048) (hh : h.val = 512 * (t.val % 4) + k.val) :
    (iblk m c 4 t : Vec Ideal S1x512 .f32) (ix2 (0 : Fin 1) k)
      = wRe (m ((c : Thread nD τ).loc main_arg6)) (m ((c : Thread nD τ).loc main_arg7)) (ix1 h) := by
  obtain ⟨-, -, -, -, -, -, -, -, e0, e1, -⟩ := idx_facts t
  unfold iblk
  rw [View.read_apply]
  show V m c main_call0_v6 _ = _
  rw [V6]
  refine Eq.trans ?_ (row_apply _ h)
  congr 1
  funext a
  apply Fin.ext
  match a with
  | ⟨0, _⟩ => show win0_4.index t (0 : Fin 2) * 1 + 1 * 0 = 0; rw [e0]
  | ⟨1, _⟩ => show win0_4.index t (1 : Fin 2) * 512 + 1 * k.val = h.val; rw [e1, hh]; omega

theorem blk5 (c : Dev nD) (t : Fin cfg0.N) (k : Fin 512) (h : Fin 2048) (hh : h.val = 512 * (t.val % 4) + k.val) :
    (iblk m c 5 t : Vec Ideal S1x512 .f32) (ix2 (0 : Fin 1) k)
      = wIm (m ((c : Thread nD τ).loc main_arg6)) (m ((c : Thread nD τ).loc main_arg7)) (ix1 h) := by
  obtain ⟨-, -, -, -, -, -, -, -, -, -, e0, e1, -⟩ := idx_facts t
  unfold iblk
  rw [View.read_apply]
  show V m c main_call0_v9 _ = _
  rw [V9]
  refine Eq.trans ?_ (row_apply _ h)
  congr 1
  funext a
  apply Fin.ext
  match a with
  | ⟨0, _⟩ => show win0_5.index t (0 : Fin 2) * 1 + 1 * 0 = 0; rw [e0]
  | ⟨1, _⟩ => show win0_5.index t (1 : Fin 2) * 512 + 1 * k.val = h.val; rw [e1, hh]; omega

theorem blk6 (c : Dev nD) (t : Fin cfg0.N) (o : Fin 1024) (k : Fin 512) (h : Fin 2048) (hh : h.val = 512 * (t.val % 4) + k.val) :
    (iblk m c 6 t : Vec Ideal S1024x512 .bf16) (ix2 o k) = m ((c : Thread nD τ).loc main_arg4) (ix2 o h) := by
  obtain ⟨-, -, -, -, -, -, -, -, -, -, -, -, e0, e1, -⟩ := idx_facts t
  unfold iblk
  rw [View.read_apply]
  show V m c main_call0_v14 _ = _
  rw [V14]
  congr 1
  funext a
  apply Fin.ext
  match a with
  | ⟨0, _⟩ => show win0_6.index t (0 : Fin 2) * 1024 + 1 * o.val = o.val; rw [e0]; omega
  | ⟨1, _⟩ => show win0_6.index t (1 : Fin 2) * 512 + 1 * k.val = h.val; rw [e1, hh]; omega

theorem blk7 (c : Dev nD) (t : Fin cfg0.N) (o : Fin 1024) (k : Fin 512) (h : Fin 2048) (hh : h.val = 512 * (t.val % 4) + k.val) :
    (iblk m c 7 t : Vec Ideal S1024x512 .bf16) (ix2 o k) = m ((c : Thread nD τ).loc main_arg5) (ix2 o h) := by
  obtain ⟨-, -, -, -, -, -, -, -, -, -, -, -, -, -, e0, e1⟩ := idx_facts t
  unfold iblk
  rw [View.read_apply]
  show V m c main_call0_v15 _ = _
  rw [V15]
  congr 1
  funext a
  apply Fin.ext
  match a with
  | ⟨0, _⟩ => show win0_7.index t (0 : Fin 2) * 1024 + 1 * o.val = o.val; rw [e0]; omega
  | ⟨1, _⟩ => show win0_7.index t (1 : Fin 2) * 512 + 1 * k.val = h.val; rw [e1, hh]; omega

end Cert.LRU

end
-- ==== Proof.KernelValue.lean ====
/-
  The kernel's result array is `outAcc` of the argument arrays.

  At point `t = 4 r + j` the body adds to the output block, at `[p, o]`, stretch `j`'s difference for output
  `[2048 r + p, o]` (`point_apply`); the block is zero before the first point of a row block; so after the row
  block's four points the block holds the four differences accumulated from zero, which is what the array ends with
  at `[b, o]`, `b = 2048 r + p` (`G8_apply`).
-/
import proofs.«172185_j56221121905330_2_alg».proof.Proof.Blocks

noncomputable section

open Idealize.ShloMosaic Idealize.ShloMosaic.TcCoe Idealize.SL.Sem
open scoped BigOperators

namespace Cert.LRU

open Cert.KernelIdeal Cert.KernelIdeal.Gen ValueIdx

variable (m : (ℓ : Loc nD τ sig) → Buf (Elt Ideal) ℓ)

/-- The real-part projection of point `t`'s blocks at `[p, o]`: stretch `j` of the real part's terms for `[b, o]`. -/
theorem proj_re (c : Dev nD) (t : Fin cfg0.N) (j : Fin 4) (hj : t.val % 4 = j.val) (p : Fin 2048) (o : Fin 1024) (b : Fin 8192)
    (hb : b.val = 2048 * (t.val / 4) + p.val) :
    proj (iblk m c 0 t : Vec Ideal S2048x1024 .bf16) (iblk m c 2 t : Vec Ideal S512x1024 .bf16) (iblk m c 4 t : Vec Ideal S1x512 .f32)
        (iblk m c 1 t : Vec Ideal S2048x512 .bf16) (iblk m c 6 t : Vec Ideal S1024x512 .bf16) p o
      = ∑ k, term (m ((c : Thread nD τ).loc main_arg0)) (m ((c : Thread nD τ).loc main_arg1)) (m ((c : Thread nD τ).loc main_arg2))
          (wRe (m ((c : Thread nD τ).loc main_arg6)) (m ((c : Thread nD τ).loc main_arg7))) (m ((c : Thread nD τ).loc main_arg4)) b o (cat j k) := by
  unfold proj term
  refine Finset.sum_congr rfl fun k _ => ?_
  have hh : (cat j k).val = 512 * (t.val % 4) + k.val := by rw [cat_val, hj]
  rw [blk1 m c t p k b (cat j k) hb hh, blk4 m c t k (cat j k) hh, blk6 m c t o k (cat j k) hh]
  congr 2
  exact Finset.sum_congr rfl fun i _ => by rw [blk0 m c t p i b hb, blk2 m c t k i (cat j k) hh]

/-- The imaginary-part projection likewise. -/
theorem proj_im (c : Dev nD) (t : Fin cfg0.N) (j : Fin 4) (hj : t.val % 4 = j.val) (p : Fin 2048) (o : Fin 1024) (b : Fin 8192)
    (hb : b.val = 2048 * (t.val / 4) + p.val) :
    proj (iblk m c 0 t : Vec Ideal S2048x1024 .bf16) (iblk m c 3 t : Vec Ideal S512x1024 .bf16) (iblk m c 5 t : Vec Ideal S1x512 .f32)
        (iblk m c 1 t : Vec Ideal S2048x512 .bf16) (iblk m c 7 t : Vec Ideal S1024x512 .bf16) p o
      = ∑ k, term (m ((c : Thread nD τ).loc main_arg0)) (m ((c : Thread nD τ).loc main_arg1)) (m ((c : Thread nD τ).loc main_arg3))
          (wIm (m ((c : Thread nD τ).loc main_arg6)) (m ((c : Thread nD τ).loc main_arg7))) (m ((c : Thread nD τ).loc main_arg5)) b o (cat j k) := by
  unfold proj term
  refine Finset.sum_congr rfl fun k _ => ?_
  have hh : (cat j k).val = 512 * (t.val % 4) + k.val := by rw [cat_val, hj]
  rw [blk1 m c t p k b (cat j k) hb hh, blk5 m c t k (cat j k) hh, blk7 m c t o k (cat j k) hh]
  congr 2
  exact Finset.sum_congr rfl fun i _ => by rw [blk0 m c t p i b hb, blk3 m c t k i (cat j k) hh]

/-- The kernel's value at `[b, o]` in terms of the argument arrays. -/
abbrev kOut (c : Dev nD) (b : Fin 8192) (o : Fin 1024) : EReal :=
  outAcc (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (wRe (m ((c : Thread nD τ).loc main_arg6)) (m ((c : Thread nD τ).loc main_arg7)))
    (wIm (m ((c : Thread nD τ).loc main_arg6)) (m ((c : Thread nD τ).loc main_arg7))) b o

/-- One point's store at `[p, o]`: what the block held plus stretch `j`'s difference. -/
theorem point_apply (c : Dev nD) (t : Fin cfg0.N) (j : Fin 4) (hj : t.val % 4 = j.val) (p : Fin 2048) (o : Fin 1024) (b : Fin 8192)
    (hb : b.val = 2048 * (t.val / 4) + p.val) (acc : Vec Ideal S2048x1024 .f32) :
    k0_pay1 (F := Ideal) (k0_pay5 (iblk m c 0 t) (iblk m c 2 t) (iblk m c 4 t) (iblk m c 1 t) (iblk m c 6 t))
        (k0_pay6 (iblk m c 0 t) (iblk m c 3 t) (iblk m c 5 t) (iblk m c 1 t) (iblk m c 7 t)) acc (ix2 p o)
      = acc (ix2 p o) + stretch (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (wRe (m ((c : Thread nD τ).loc main_arg6)) (m ((c : Thread nD τ).loc main_arg7)))
          (wIm (m ((c : Thread nD τ).loc main_arg6)) (m ((c : Thread nD τ).loc main_arg7))) b o j := by
  refine (pay1_apply _ _ _ _).trans ?_
  refine congrArg (acc (ix2 p o) + ·) ?_
  unfold stretch
  refine congrArg₂ (· - ·) ((pay5_apply _ _ _ _ _ p o).trans (proj_re m c t j hj p o b hb))
    ((pay6_apply _ _ _ _ _ p o).trans (proj_im m c t j hj p o b hb))

/-- The fold of a row block's four points, at `[p, o]` of the block. -/
theorem fold_apply (c : Dev nD) (r : ℕ) (h : 4 * r + 3 < cfg0.N) (p : Fin 2048) (o : Fin 1024) (b : Fin 8192)
    (hb : b.val = 2048 * r + p.val) :
    Pipeline.accAt (Value.reset8 m c) (Value.step8 m c) (4 * r) 3 h (ix2 p o) = kOut m c b o := by
  rw [Pipeline.accAt_succ, Pipeline.accAt_succ, Pipeline.accAt_succ, Pipeline.accAt_zero]
  unfold Value.step8 Value.reset8
  rw [point_apply m c ⟨4 * r + (2 + 1), _⟩ 3 (by show (4 * r + (2 + 1)) % 4 = 3; omega) p o b (by show b.val = 2048 * ((4 * r + (2 + 1)) / 4) + p.val; omega),
    point_apply m c ⟨4 * r + (1 + 1), _⟩ 2 (by show (4 * r + (1 + 1)) % 4 = 2; omega) p o b (by show b.val = 2048 * ((4 * r + (1 + 1)) / 4) + p.val; omega),
    point_apply m c ⟨4 * r + (0 + 1), _⟩ 1 (by show (4 * r + (0 + 1)) % 4 = 1; omega) p o b (by show b.val = 2048 * ((4 * r + (0 + 1)) / 4) + p.val; omega),
    point_apply m c ⟨4 * r, _⟩ 0 (by show (4 * r) % 4 = 0; omega) p o b (by show b.val = 2048 * ((4 * r) / 4) + p.val; omega),
    pay2_apply]
  rfl

/-- The result array at `[b, o]`. -/
theorem G8_apply (c : Dev nD) (i : S8192x1024.Idx) : Value.G8 m c i = kOut m c (i 0) (i 1) := by
  have hi0 : (i 0).val < 8192 := (i 0).isLt
  have hi1 : (i 1).val < 1024 := (i 1).isLt
  have hN : cfg0.N = 16 := N_0
  have hr : Value.run8Of i = (i 0).val / 2048 := by
    show 1 * ((i 0).val / 2048 - 0) + 1 * ((i 1).val / 1024 - 0) = _
    have : (i 1).val / 1024 = 0 := by omega
    omega
  have hl : Value.loc8Of i = ix2 (⟨(i 0).val % 2048, Nat.mod_lt _ (by decide)⟩ : Fin 2048) (⟨(i 1).val % 1024, Nat.mod_lt _ (by decide)⟩ : Fin 1024) :=
    funext fun a => by match a with | ⟨0, _⟩ => rfl | ⟨1, _⟩ => rfl
  unfold Value.G8
  rw [dif_pos (by rw [hr, hN]; omega), hl]
  have ho : (⟨(i 1).val % 1024, Nat.mod_lt _ (by decide)⟩ : Fin 1024) = i 1 := Fin.ext (by show (i 1).val % 1024 = (i 1).val; omega)
  rw [ho]
  exact fold_apply m c (Value.run8Of i) _ _ (i 1) (i 0) (by rw [hr]; show (i 0).val = 2048 * ((i 0).val / 2048) + (i 0).val % 2048; omega)

end Cert.LRU

end
-- ==== Proof.RefSide.lean ====
/-
  The reference program, read at one output entry.  Its result at [b, o] is

    (∑ h < 2048, (∑ k < 1024, x[b,k]·Br[h,k] + h_prev[b,h]·wr[h]) · Cr[o,h])
      − (∑ h < 2048, (∑ k < 1024, x[b,k]·Bi[h,k] + h_prev[b,h]·wi[h]) · Ci[o,h]),

  with wr = exp(−exp v)·cos(exp θ) and wi = exp(−exp v)·sin(exp θ): the two contractions over the hidden axis of the two
  hidden states, subtracted.  The generated module reads each operation of the reference at an index; chaining those
  readings from the subtraction inward, and naming each index by its coordinates, gives the specification's value
  entry by entry.
-/
import proofs.«172185_j56221121905330_2_alg».proof.Proof.Gen.ReferenceIdeal.Read
import proofs.«172185_j56221121905330_2_alg».proof.Proof.Spec

noncomputable section

open Idealize.ShloMosaic
open scoped BigOperators

namespace Cert.LRU

open ValueIdx Cert.ReferenceIdeal.Read

/-! ### The indices the layout and contraction operations read at, by coordinates -/

/-- Output entry [b, o], hidden position h: the hidden state is read at [b, h] … -/
theorem lidx18_eq (b : Fin 8192) (o : Fin 1024) (h : Fin 2048) : lidx_main_v18 (ix2 b o) h = ix2 b h := by
  funext a; match a with | ⟨0, _⟩ => rfl | ⟨1, _⟩ => rfl
/-- … and the real part's C matrix at [o, h]. -/
theorem ridx18_eq (b : Fin 8192) (o : Fin 1024) (h : Fin 2048) : ridx_main_v18 (ix2 b o) h = ix2 o h := by
  funext a; match a with | ⟨0, _⟩ => rfl | ⟨1, _⟩ => rfl
theorem lidx19_eq (b : Fin 8192) (o : Fin 1024) (h : Fin 2048) : lidx_main_v19 (ix2 b o) h = ix2 b h := by
  funext a; match a with | ⟨0, _⟩ => rfl | ⟨1, _⟩ => rfl
theorem ridx19_eq (b : Fin 8192) (o : Fin 1024) (h : Fin 2048) : ridx_main_v19 (ix2 b o) h = ix2 o h := by
  funext a; match a with | ⟨0, _⟩ => rfl | ⟨1, _⟩ => rfl
/-- Hidden entry [b, h], input position k: x is read at [b, k] … -/
theorem lidx8_eq (b : Fin 8192) (h : Fin 2048) (k : Fin 1024) : lidx_main_v8 (ix2 b h) k = ix2 b k := by
  funext a; match a with | ⟨0, _⟩ => rfl | ⟨1, _⟩ => rfl
/-- … and the B matrix at [h, k]. -/
theorem ridx8_eq (b : Fin 8192) (h : Fin 2048) (k : Fin 1024) : ridx_main_v8 (ix2 b h) k = ix2 h k := by
  funext a; match a with | ⟨0, _⟩ => rfl | ⟨1, _⟩ => rfl
theorem lidx13_eq (b : Fin 8192) (h : Fin 2048) (k : Fin 1024) : lidx_main_v13 (ix2 b h) k = ix2 b k := by
  funext a; match a with | ⟨0, _⟩ => rfl | ⟨1, _⟩ => rfl
theorem ridx13_eq (b : Fin 8192) (h : Fin 2048) (k : Fin 1024) : ridx_main_v13 (ix2 b h) k = ix2 h k := by
  funext a; match a with | ⟨0, _⟩ => rfl | ⟨1, _⟩ => rfl
/-- The weight vector, broadcast along the batch axis in two steps, is read at h. -/
theorem idx9_10_eq (b : Fin 8192) (h : Fin 2048) : idx_main_v9 (idx_main_v10 (ix2 b h)) = ix1 h := by
  funext a; match a with | ⟨0, _⟩ => rfl
theorem idx14_15_eq (b : Fin 8192) (h : Fin 2048) : idx_main_v14 (idx_main_v15 (ix2 b h)) = ix1 h := by
  funext a; match a with | ⟨0, _⟩ => rfl

/-! ### The two weight vectors are the specification's -/

theorem v5_eq (x6 x7 : FVec Ideal SV .f32) : val_main_v5 (F := Ideal) x6 x7 = wRe x6 x7 := rfl
theorem v7_eq (x6 x7 : FVec Ideal SV .f32) : val_main_v7 (F := Ideal) x6 x7 = wIm x6 x7 := rfl

/-! ### One hidden position's contribution -/

/-- The real part: the hidden state at [b, h] times Cr[o, h] is the specification's term. -/
theorem re_term (x0 : FVec Ideal SX .f32) (x1 : FVec Ideal SH .f32) (x2 : FVec Ideal SB .f32) (x4 : FVec Ideal SC .f32)
    (x6 x7 : FVec Ideal SV .f32) (b : Fin 8192) (o : Fin 1024) (h : Fin 2048) :
    val_main_v12 (F := Ideal) x0 x1 x2 x6 x7 (lidx_main_v18 (ix2 b o) h) * x4 (ridx_main_v18 (ix2 b o) h)
      = term x0 x1 x2 (wRe x6 x7) x4 b o h := by
  rw [lidx18_eq, ridx18_eq, val_main_v12_apply, val_main_v8_apply, val_main_v11_apply, val_main_v10_apply,
    val_main_v9_apply, idx9_10_eq, v5_eq, Ideal.addf_def, Ideal.mulf_def]
  unfold term
  simp only [lidx8_eq, ridx8_eq]

/-- The imaginary part, the same with Bi, wi, Ci. -/
theorem im_term (x0 : FVec Ideal SX .f32) (x1 : FVec Ideal SH .f32) (x3 : FVec Ideal SB .f32) (x5 : FVec Ideal SC .f32)
    (x6 x7 : FVec Ideal SV .f32) (b : Fin 8192) (o : Fin 1024) (h : Fin 2048) :
    val_main_v17 (F := Ideal) x0 x1 x3 x6 x7 (lidx_main_v19 (ix2 b o) h) * x5 (ridx_main_v19 (ix2 b o) h)
      = term x0 x1 x3 (wIm x6 x7) x5 b o h := by
  rw [lidx19_eq, ridx19_eq, val_main_v17_apply, val_main_v13_apply, val_main_v16_apply, val_main_v15_apply,
    val_main_v14_apply, idx14_15_eq, v7_eq, Ideal.addf_def, Ideal.mulf_def]
  unfold term
  simp only [lidx13_eq, ridx13_eq]

/-! ### The reference at an entry -/

theorem ref_apply (x0 : FVec Ideal SX .f32) (x1 : FVec Ideal SH .f32) (x2 x3 : FVec Ideal SB .f32) (x4 x5 : FVec Ideal SC .f32)
    (x6 x7 : FVec Ideal SV .f32) (i : SX.Idx) :
    Cert.ReferenceIdeal.Read.val_main_v20 (F := Ideal) x0 x1 x2 x3 x4 x5 x6 x7 i
      = outRef x0 x1 x2 x3 x4 x5 (wRe x6 x7) (wIm x6 x7) (i 0) (i 1) := by
  obtain ⟨b, o, rfl⟩ : ∃ (b : Fin 8192) (o : Fin 1024), i = ix2 b o := ⟨i 0, i 1, eq_ix2 i⟩
  show val_main_v20 (F := Ideal) x0 x1 x2 x3 x4 x5 x6 x7 (ix2 b o)
      = outRef x0 x1 x2 x3 x4 x5 (wRe x6 x7) (wIm x6 x7) b o
  rw [val_main_v20_apply, val_main_v18_apply, val_main_v19_apply, Ideal.subf_def]
  unfold outRef
  exact congrArg₂ (fun a c : EReal => a - c)
    (Finset.sum_congr rfl fun h _ => re_term x0 x1 x2 x4 x6 x7 b o h)
    (Finset.sum_congr rfl fun h _ => im_term x0 x1 x3 x5 x6 x7 b o h)

end Cert.LRU

end
-- ==== Proof.FiniteInputs.lean ====
/-
  The finiteness precondition, decoded.  The generated predicate is the conjunction, over the eight float arrays, of
  "every entry x satisfies |x| < +inf".  Read at the ideal instance (floats are extended reals, |x| = max x (-x), the
  comparison is the order's), its being all ones says that every entry of every array is neither +inf nor -inf, that is,
  a real number.
-/
import proofs.«172185_j56221121905330_2_alg».proof.Pre_finite_inputs
import Idealize.ShloMosaic.PureOps.Ideal
import Idealize.ShloMosaic.Lib.ReduceAll
import Idealize.ShloMosaic.Lib.ValueIdx

namespace Cert.LRU

open Idealize.ShloMosaic Cert.Pre_finite_inputs

/-- The one word the predicate compares against denotes +inf. -/
theorem ofBits_inf : Ideal.ofBits .f32 0x7F800000#32 = (⊤ : EReal) := by
  simp [Ideal.ofBits, Ideal.ieee]

/-- The ordered "less than" of the extended reals, read back from its one-bit result. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One element: if max x (-x) < +inf then x is a real number (x = +inf makes the maximum +inf; x = -inf makes -x = +inf). -/
theorem real_of_abs_lt_inf (x : EReal)
    (h : Ideal.cmp .olt (max x (-x)) (Ideal.ofBits .f32 0x7F800000#32) = 1#1) : ∃ r : ℝ, x = (r : EReal) := by
  have hlt : max x (-x) < (⊤ : EReal) := by
    have := lt_of_cmp_olt h
    rwa [ofBits_inf] at this
  induction x using EReal.rec with
  | bot => exact absurd hlt (by simp)
  | coe r => exact ⟨r, rfl⟩
  | top => exact absurd hlt (by simp)

/-- The scalar shape has one index. -/
instance subsingleton_S_Idx : Subsingleton S_.Idx := ⟨fun a b => funext fun d => d.elim0⟩

/-- One array of any shape: if the "all" of |a| < +inf (the reduction by "and" over every axis into the scalar shape) is
    one, every entry of a is real.  The reduction being one makes every compared element one; the compared element at
    index i is the comparison of max (a i) (-(a i)) with the broadcast scalar constant, whose every entry is the one word. -/
theorem real_of_all_lt_inf {s : Shape} {axes : List (Fin s.rank)} (a : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf a) (broadcastInDim s ![] hb (constant (F := Ideal) S_ .f32 0x7F800000#32))) init hr hu
          ValueIdx.ix0 = 1#1) :
    ∀ i, ∃ r : ℝ, a i = (r : EReal) := by
  intro i
  have hi := Host.reduce_andi_all _ init hr hu ValueIdx.ix0 e i
  exact real_of_abs_lt_inf (a i) hi

theorem real_of_finite_inputs [Cert.Pre_finite_inputs.Facts]
    (a0 : FVec Ideal S8192x1024 .f32) (a1 : FVec Ideal S8192x2048 .f32) (a2 a3 : FVec Ideal S2048x1024 .f32)
    (a4 a5 : FVec Ideal S1024x2048 .f32) (a6 a7 : FVec Ideal S2048 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ValueIdx.ix0
  dsimp only [fn, fn_part1, fn_part2] at h0
  -- the chain is ((((((p0 ∧ p1) ∧ p2) ∧ p3) ∧ p4) ∧ p5) ∧ p6) ∧ p7, each "and" pointwise at the one scalar index
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_lt_inf a0 _ _ _ _ e0, real_of_all_lt_inf a1 _ _ _ _ e1, real_of_all_lt_inf a2 _ _ _ _ e2,
    real_of_all_lt_inf a3 _ _ _ _ e3, real_of_all_lt_inf a4 _ _ _ _ e4, real_of_all_lt_inf a5 _ _ _ _ e5,
    real_of_all_lt_inf a6 _ _ _ _ e6, real_of_all_lt_inf a7 _ _ _ _ e7⟩

end Cert.LRU
-- ==== Proof.lean ====
/-
  The kernel computes, for a batch of 8192 rows, one step of a diagonal complex linear recurrence followed by the real
  part of a complex output projection:
      hr = x·Brᵀ + h_prev ∘ wr,   hi = x·Biᵀ + h_prev ∘ wi,   out = hr·Crᵀ − hi·Ciᵀ,
  with wr = exp(−exp v)·cos(exp θ), wi = exp(−exp v)·sin(exp θ).  It walks the 2048 hidden positions in four stretches
  of 512 and adds each stretch's "real-part contribution minus imaginary-part contribution" to an output block that
  starts at zero; the reference forms the two whole contractions over the hidden axis and subtracts them.

  Over the extended reals the two are the same function of the inputs provided the imaginary part's terms are real
  numbers: a sum over 2048 positions is the sum of its four stretches by commutativity and associativity alone, but
  moving the subtraction across the accumulation needs −(a + b) = −a − b, which fails when ⊤ meets ⊥.  The
  precondition (every input finite) makes every term real, since exp, cos, sin, +, · keep the reals.

  The kernel's result array as a fold of its body over the four points of a row block, and the reference's run as
  the composition of its operations, come from the generated modules; the modules beside this one read both at an
  entry [b, o] and identify them with the two forms of the specification (`outAcc`, `outRef`).
-/
import proofs.«172185_j56221121905330_2_alg».proof.Defs
import proofs.«172185_j56221121905330_2_alg».proof.Proof.Gen.Kernel.Frame
import proofs.«172185_j56221121905330_2_alg».proof.Proof.Gen.KernelIdeal.Value
import proofs.«172185_j56221121905330_2_alg».proof.Proof.Gen.Pre_finite_inputs
import proofs.«172185_j56221121905330_2_alg».proof.Proof.Gen.ReferenceIdeal.Run
import proofs.«172185_j56221121905330_2_alg».proof.Proof.KernelValue
import proofs.«172185_j56221121905330_2_alg».proof.Proof.RefSide
import proofs.«172185_j56221121905330_2_alg».proof.Proof.FiniteInputs
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Entry by entry: the reference's whole-sum difference is the kernel's accumulated stretch differences, the
    imaginary part's terms being real because every input is. -/
theorem result_eq (m : (ℓ : Loc Cert.KernelIdeal.nD Cert.KernelIdeal.τ Cert.KernelIdeal.sig) → Buf (Elt Ideal) ℓ)
    (hpre : Pre_KernelIdeal m) (c : Dev Cert.KernelIdeal.nD) (i : Cert.LRU.SX.Idx) :
    Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7)) i
      = Cert.KernelIdeal.Value.G8 m c i := by
  obtain ⟨r0, r1, r2, r3, r4, r5, r6, r7⟩ := Cert.LRU.real_of_finite_inputs _ _ _ _ _ _ _ _ (hpre c)
  rw [Cert.LRU.ref_apply, Cert.LRU.G8_apply]
  exact (Cert.LRU.outAcc_eq_outRef _ _ _ _ _ _ _ _ r0 r1 r3 (Cert.LRU.wIm_isReal _ _ r6 r7) r5 (i 0) (i 1)).symm

theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v20_eq]
  exact funext fun i => result_eq m hpre c i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
